-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8x1x32 : Shape := ⟨3, ![8, 1, 32]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8x1x32 : S_.BroadcastsInDim S8x1x32 (![] : Fin 0 → Fin S8x1x32.rank)
  reducesTo_S8x1x32_S_d0_1_2 : S8x1x32.ReducesTo [0, 1, 2] S_

variable [Facts]

def fn {F : FTy → Type} [FloatOps F] (main_arg0 : FVec F S16384x8192 .f32) (main_arg1 : FVec F S8x1x32 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8x1x32 .f32 := Host.absf main_arg1
  let main_cst_0 : FVec F S_ .f32 := constant S_ .f32 0x7F800000#32
  let main_v5 : FVec F S8x1x32 .f32 := broadcastInDim S8x1x32 ![] bcast_S_S8x1x32 main_cst_0
  let main_v6 : IVec S8x1x32 1 := cmpf .olt main_v4 main_v5
  let main_c_1 : IVec S_ 1 := constantI S_ 1 1#1
  let main_v7 : IVec S_ 1 := (fun x v => Host.reduce IntOp.andi x v reducesTo_S8x1x32_S_d0_1_2 h_S_) main_v6 main_c_1
  let main_v8 : IVec S_ 1 := andi main_v3 main_v7
  main_v8
-- ==== Kernel.lean ====
abbrev S16384x8192 : Shape := ⟨2, ![16384, 8192]⟩
abbrev S8x1x32 : Shape := ⟨3, ![8, 1, 32]⟩
abbrev S8x32 : Shape := ⟨2, ![8, 32]⟩
abbrev S32x8 : Shape := ⟨2, ![32, 8]⟩
abbrev S1x32x1x8 : Shape := ⟨4, ![1, 32, 1, 8]⟩
abbrev S4x32x1x8 : Shape := ⟨4, ![4, 32, 1, 8]⟩
abbrev S128x8 : Shape := ⟨2, ![128, 8]⟩
abbrev S16384x8 : Shape := ⟨2, ![16384, 8]⟩
abbrev S512x8192 : Shape := ⟨2, ![512, 8192]⟩
abbrev S512x8 : Shape := ⟨2, ![512, 8]⟩
abbrev S512x128 : Shape := ⟨2, ![512, 128]⟩
abbrev S512x1024 : Shape := ⟨2, ![512, 1024]⟩
abbrev S512x8x128 : Shape := ⟨3, ![512, 8, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S8x1x32, .f32⟩
  | .hbm, ⟨2, _⟩ => ⟨S8x32, .f32⟩
  | .hbm, ⟨3, _⟩ => ⟨S32x8, .f32⟩
  | .hbm, ⟨4, _⟩ => ⟨S1x32x1x8, .f32⟩
  | .hbm, ⟨5, _⟩ => ⟨S4x32x1x8, .f32⟩
  | .hbm, ⟨6, _⟩ => ⟨S128x8, .f32⟩
  | .hbm, ⟨7, _⟩ => ⟨S16384x8, .f32⟩
  | .local _ .vmem, ⟨0, _⟩ => ⟨S512x8192, .f32⟩
  | .local _ .vmem, ⟨1, _⟩ => ⟨S512x8192, .f32⟩
  | .local _ .vmem, ⟨2, _⟩ => ⟨S128x8, .f32⟩
  | .local _ .vmem, ⟨3, _⟩ => ⟨S512x8, .f32⟩
  | .local _ .vmem, ⟨4, _⟩ => ⟨S512x8, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_mult2 : BitVec 32 :=
  let c1_i32 : BitVec 32 := 1#32
  let c1024_i32_1 : BitVec 32 := 1024#32
  let v8 : BitVec 32 := Scalar.muli c1_i32 c1024_i32_1
  v8
def k0_mult3 : BitVec 32 :=
  let c2_i32 : BitVec 32 := 2#32
  let c1024_i32_4 : BitVec 32 := 1024#32
  let v15 : BitVec 32 := Scalar.muli c2_i32 c1024_i32_4
  v15
def k0_mult4 : BitVec 32 :=
  let c3_i32 : BitVec 32 := 3#32
  let c1024_i32_7 : BitVec 32 := 1024#32
  let v22 : BitVec 32 := Scalar.muli c3_i32 c1024_i32_7
  v22
def k0_mult5 : BitVec 32 :=
  let c4_i32 : BitVec 32 := 4#32
  let c1024_i32_10 : BitVec 32 := 1024#32
  let v29 : BitVec 32 := Scalar.muli c4_i32 c1024_i32_10
  v29
def k0_mult6 : BitVec 32 :=
  let c5_i32 : BitVec 32 := 5#32
  let c1024_i32_13 : BitVec 32 := 1024#32
  let v36 : BitVec 32 := Scalar.muli c5_i32 c1024_i32_13
  v36
def k0_mult7 : BitVec 32 :=
  let c6_i32 : BitVec 32 := 6#32
  let c1024_i32_16 : BitVec 32 := 1024#32
  let v43 : BitVec 32 := Scalar.muli c6_i32 c1024_i32_16
  v43
def k0_mult8 : BitVec 32 :=
  let c7_i32 : BitVec 32 := 7#32
  let c1024_i32_19 : BitVec 32 := 1024#32
  let v50 : BitVec 32 := Scalar.muli c7_i32 c1024_i32_19
  v50
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x1x32_S8x32 : S8x1x32.ShapeCasts S8x32
  transposes_S8x32_S32x8_1_0 : S8x32.Transposes [1, 0] S32x8
  shapeCasts_S32x8_S1x32x1x8 : S32x8.ShapeCasts S1x32x1x8
  bcast_S1x32x1x8_S4x32x1x8_0_1_2_3 : S1x32x1x8.BroadcastsInDim S4x32x1x8 (![0, 1, 2, 3] : Fin 4 → Fin S4x32x1x8.rank)
  shapeCasts_S4x32x1x8_S128x8 : S4x32x1x8.ShapeCasts S128x8
  h_S512x1024 : 0 < S512x1024.numel
  shapeCasts_S512x1024_S512x8x128 : S512x1024.ShapeCasts S512x8x128
  reduces_S512x8x128_S512x128 : S512x8x128.Reduces [1] S512x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S512x8_S512x8_0_0 : ∀ a, (![0, 0] : Fin 2 → Nat) a + S512x8.size a ≤ S512x8.size a
  h_S512x8 : 0 < S512x8.numel
  dot_S512x128_S128x8_S512x8_1_0_0_1_n_n_wf : DotDims.WF S512x128 S128x8 S512x8 [1] [0] [0] [1] [] []
  hrank0 : 0 < grid0.rank
  k0_mult1_dvd : 1024 ∣ k0_mult1.toNat
  k0_off1_inb : ∀ (r : Fin 8), ∀ a, (k0_off1 (BitVec.ofNat 32 r.val)) a + S512x1024.size a ≤ S512x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S16384x8.size a
  hwx0_2 : ∀ i : grid0.Coords, EltTy.bits .f32 = 32 ∨ (Rect.block (s := S16384x8) S512x8.size (cc0_transform_2 i) (hinb0_2 i)).WholeWords (EltTy.packing .f32)

variable [Facts₀]

def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S8x1x32 : Shape := ⟨3, ![8, 1, 32]⟩
abbrev S16384x256x32 : Shape := ⟨3, ![16384, 256, 32]⟩
abbrev S_ : Shape := ⟨0, ![]⟩
abbrev S16384x32 : Shape := ⟨2, ![16384, 32]⟩
abbrev S8x32 : Shape := ⟨2, ![8, 32]⟩
abbrev S16384x8 : Shape := ⟨2, ![16384, 8]⟩

abbrev nBuf : Space → Nat
  | .hbm => 7
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8x1x32, .f32⟩
  | .hbm, ⟨2, _⟩ => ⟨S16384x256x32, .f32⟩
  | .hbm, ⟨3, _⟩ => ⟨S_, .f32⟩
  | .hbm, ⟨4, _⟩ => ⟨S16384x32, .f32⟩
  | .hbm, ⟨5, _⟩ => ⟨S8x32, .f32⟩
  | .hbm, ⟨6, _⟩ => ⟨S16384x8, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S16384x8192_S16384x256x32 : S16384x8192.ShapeCasts S16384x256x32
  reducesTo_S16384x256x32_S16384x32_d1 : S16384x256x32.ReducesTo [1] S16384x32
  h_S_ : 0 < S_.numel
  shapeCasts_S8x1x32_S8x32 : S8x1x32.ShapeCasts S8x32
  dot_S16384x32_S8x32_S16384x8_1_1_0_0_n_n_wf : DotDims.WF S16384x32 S8x32 S16384x8 [1] [1] [0] [0] [] []

variable [Facts₀]

def dot_S16384x32_S8x32_S16384x8_1_1_0_0_n_n : DotDims S16384x32 S8x32 S16384x8 where
  lhsContracting := [1]
  rhsContracting := [1]
  lhsNonContracting := [0]
  rhsNonContracting := [0]
  lhsBatch := []
  rhsBatch := []
  wf := dot_S16384x32_S8x32_S16384x8_1_1_0_0_n_n_wf

class Facts : Prop extends Facts₀ where

variable [Facts]
-- ==== Proof.FiniteEntries.lean ====
/-
  Under the precondition every entry of both inputs is a real number.

  The precondition compares, entry by entry, the absolute value `max a (-a)` with the pattern of `+∞` and asks that all
  comparisons hold.  On the extended reals `max a (-a) < ⊤` fails exactly at `a = ⊤` and at `a = ⊥`, so an entry that
  passes is the image of a real, namely of its own real part.
-/
import proofs.«121352_j23510650978886_2_alg».proof.Pre_finite_inputs
import Idealize.ShloMosaic.PureOps.Ideal.Laws
import Idealize.ShloMosaic.Lib.ReduceAll
import Idealize.ShloMosaic.Lib.ValueIdx

noncomputable section

open Idealize.ShloMosaic Idealize.ShloMosaic.ValueIdx

namespace Cert.Pre_finite_inputs.Finite

open Cert.Pre_finite_inputs

instance : Subsingleton S_.Idx := ⟨fun a b => funext fun d => d.elim0⟩

/-- The f32 pattern with all exponent bits set and no fraction bit denotes `+∞`. -/
theorem ofBits_inf : Ideal.ofBits .f32 0x7F800000#32 = (⊤ : EReal) := by
  simp [Ideal.ofBits, Ideal.ieee]

/-- An extended real whose absolute value is below `+∞` is the image of its real part. -/
theorem real_of_abs_lt_inf (a : EReal)
    (h : Ideal.cmp .olt (max a (-a)) (Ideal.ofBits .f32 0x7F800000#32) = 1#1) : a = ((a.toReal : ℝ) : EReal) := by
  rw [ofBits_inf] at h
  induction a using EReal.rec with
  | bot => simp [Ideal.cmp] at h
  | top => simp [Ideal.cmp] at h
  | coe r => simp

variable [Facts]

/-- The precondition, read entry by entry. -/
theorem reals_of_pre (x : FVec Ideal S16384x8192 .f32) (w : FVec Ideal S8x1x32 .f32)
    (h : fn (F := Ideal) x w = fun _ => 1#1) :
    (∀ i, x i = (((x i : EReal).toReal : ℝ) : EReal)) ∧ (∀ i, w i = (((w i : EReal).toReal : ℝ) : EReal)) := by
  have h1 := congrFun h ix0
  dsimp only [fn] at h1
  obtain ⟨ha, hb⟩ := IntOp.andi_eq_one.1 h1
  constructor
  · intro i
    exact real_of_abs_lt_inf (x i) (Host.reduce_andi_all _ _ _ _ _ ha i)
  · intro i
    exact real_of_abs_lt_inf (w i) (Host.reduce_andi_all _ _ _ _ _ hb i)

end Cert.Pre_finite_inputs.Finite

end
-- ==== Proof.BodyValue.lean ====
/-
  What one grid point's body leaves in its output block, as a pure function of the point's two input blocks.

  The body reads its 512 × 8192 block of `x` in eight chunks of 1024 columns (`chunk`), folds every chunk's eight groups
  of 128 lanes into a 512 × 128 accumulator, and stores the product of that accumulator with the 128 × 8 weight block
  through the whole output block.  So the output block is the stored product, and every load reads the input blocks
  themselves (`block_eq`): nothing of the block's earlier contents survives the one covering store.
-/
import proofs.«121352_j23510650978886_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero_offsets : (![0, 0] : Fin 2 → Nat) = fun _ => 0 := funext fun a => by fin_cases a <;> rfl

/-- Columns `off … off + 1023` of a 512 × 8192 block, all 512 rows. -/
def chunk (x0 : Vec F S512x8192 .f32) (off : Nat)
    (h : ∀ a, (![0, off] : Fin 2 → Nat) a + S512x1024.size a ≤ S512x8192.size a) : Vec F S512x1024 .f32 :=
  View.ld x0 (Rect.unit (s := S512x8192) ![0, off] S512x1024.size h)

/-- The stored product: the eight chunks folded lane-wise, first five then three more, times the weight block. -/
def block (x0 : Vec F S512x8192 .f32) (x1 : Vec F S128x8 .f32) : Vec F S512x8 .f32 :=
  k0_pay1
    (k0_pay2 (chunk x0 0 (by decide)) (chunk x0 1024 (by decide)) (chunk x0 2048 (by decide))
      (chunk x0 3072 (by decide)) (chunk x0 4096 (by decide)))
    (chunk x0 5120 (by decide)) (chunk x0 6144 (by decide)) (chunk x0 7168 (by decide)) x1

/-- The output block after the body is `block` of the two input blocks, on any staging buffers. -/
theorem block_eq (c : Dev nD) (i : grid0.Coords) (arg1 : Memref sig .tc .vmem S512x8192 .f32) (harg1 : arg1.IsWhole)
    (arg2 : Memref sig .tc .vmem S128x8 .f32) (harg2 : arg2.IsWhole) (arg3 : Memref sig .tc .vmem S512x8 .f32)
    (harg3 : arg3.IsWhole) (x0 : Vec F S512x8192 .f32) (x1 : Vec F S128x8 .f32) :
    out0_A_2 c i arg1 harg1 arg2 harg2 arg3 harg3 x0 x1 = block x0 x1 := by
  unfold out0_A_2
  rw [View.read_writes_eq_canon _ _ _ (cover0_A_2 c i arg1 harg1 arg2 harg2 arg3 harg3 x0 x1)]
  unfold kernelRun0_A
  dsimp only
  try sl_unfold_words
  rw [View.canon_unit_zero zero_offsets]
  simp only [View.readAt_eq_ld, harg1.read_unread, harg2.read_unread, View.ld_unit_zero (S := S128x8) zero_offsets]
  rfl

end Cert.KernelIdeal.Body

end
-- ==== Proof.PatchSum.lean ====
/-
  The one law that joins the two arrangements of a row's patch sum.

  A row of 8192 numbers is cut into 256 patches of 32; "phase" k of a patch is its k-th entry.  One arrangement first adds,
  for each phase k, the 256 entries of that phase and then weighs the 32 phase sums (`refForm`).  The other walks the
  row in 8 chunks of 1024 = 8 × 128 and adds, lane by lane (128 lanes), the 64 entries a lane meets, then weighs the 128
  lane sums by a weight that depends on the lane only through its phase `l % 32` (`laneForm`).  Since 32 divides 128, the
  lane `l = 32 j + k` only ever meets entries of phase `k`, and the four lanes `k, k + 32, k + 64, k + 96` split the
  256 patches of phase `k` four ways: patch `p = 32 c + 4 s + j` sits at column `1024 c + 128 s + 32 j + k`.  Moving the
  weight across the four-way split is distributivity, which holds for real numbers and fails on the extended reals at
  infinities of opposite sign; so the law is proved for real entries and stated for their images in the extended reals.
-/
import Mathlib.Data.EReal.Basic
import Mathlib.Algebra.BigOperators.Fin
import Mathlib.Tactic.Ring

open Finset

noncomputable section

namespace PatchSum

/-- A sum over the first `a * b` numbers, grouped into `a` runs of `b`. -/
theorem sum_range_mul {M : Type*} [AddCommMonoid M] (h : ℕ → M) (a b : ℕ) :
    ∑ i ∈ range (a * b), h i = ∑ j ∈ range a, ∑ k ∈ range b, h (j * b + k) := by
  induction a with
  | zero => simp
  | succ a ih => rw [add_mul, one_mul, sum_range_add, ih, sum_range_succ]

/-- The law over the reals: the weighted lane sums are the weighted phase sums. -/
theorem regroup_real (f g : ℕ → ℝ) :
    ∑ l ∈ range 128, (∑ c ∈ range 8, ∑ s ∈ range 8, f (c * 1024 + s * 128 + l)) * g (l % 32)
      = ∑ k ∈ range 32, (∑ p ∈ range 256, f (p * 32 + k)) * g k := by
  -- a lane is `32 j + k`, and its weight is the weight of its phase `k`
  have hL : ∑ l ∈ range 128, (∑ c ∈ range 8, ∑ s ∈ range 8, f (c * 1024 + s * 128 + l)) * g (l % 32)
      = ∑ j ∈ range 4, ∑ k ∈ range 32,
          (∑ c ∈ range 8, ∑ s ∈ range 8, f (c * 1024 + s * 128 + (j * 32 + k))) * g k := by
    have e : range 128 = range (4 * 32) := rfl
    rw [e, sum_range_mul]
    refine sum_congr rfl fun j _ => sum_congr rfl fun k hk => ?_
    have hk' : k < 32 := mem_range.mp hk
    rw [show (j * 32 + k) % 32 = k by omega]
  -- a patch is `32 c + 4 s + j`, and its entry of phase `k` sits at column `1024 c + 128 s + 32 j + k`
  have hR : ∀ k, ∑ p ∈ range 256, f (p * 32 + k)
      = ∑ c ∈ range 8, ∑ s ∈ range 8, ∑ j ∈ range 4, f (c * 1024 + s * 128 + (j * 32 + k)) := by
    intro k
    have e : range 256 = range (8 * 32) := rfl
    rw [e, sum_range_mul]
    refine sum_congr rfl fun c _ => ?_
    have e' : range 32 = range (8 * 4) := rfl
    rw [e', sum_range_mul]
    refine sum_congr rfl fun s _ => sum_congr rfl fun j _ => ?_
    congr 1; ring
  rw [hL, sum_comm]
  refine sum_congr rfl fun k _ => ?_
  rw [← sum_mul, hR k]
  refine congrArg (fun z : ℝ => z * g k) ?_
  rw [sum_comm]
  refine sum_congr rfl fun c _ => ?_
  rw [sum_comm]

/-- The image of a finite sum of reals in the extended reals is the sum of the images. -/
theorem coe_sum {ι : Type*} (s : Finset ι) (h : ι → ℝ) :
    ((∑ i ∈ s, h i : ℝ) : EReal) = ∑ i ∈ s, (h i : EReal) := by
  classical
  refine Finset.induction_on s ?_ ?_
  · simp
  · intro a s ha ih
    rw [sum_insert ha, sum_insert ha, EReal.coe_add, ih]

/-- What lane `l` meets of the chunk of 1024 columns that starts at column `off`: eight entries, 128 apart. -/
def chunkSum (f : ℕ → ℝ) (off l : ℕ) : EReal := ∑ s : Fin 8, (f (off + s.val * 128 + l) : EReal)

/-- The lane arrangement: eight chunk sums added in order onto zero, lane by lane, then weighed by the lane's phase. -/
def laneForm (f g : ℕ → ℝ) : EReal :=
  ∑ l : Fin 128,
    (0 + chunkSum f 0 l.val + chunkSum f 1024 l.val + chunkSum f 2048 l.val + chunkSum f 3072 l.val
      + chunkSum f 4096 l.val + chunkSum f 5120 l.val + chunkSum f 6144 l.val + chunkSum f 7168 l.val)
      * (g (l.val % 32) : EReal)

/-- The phase arrangement: for each phase the 256 patches' entries added onto zero, then weighed. -/
def refForm (f g : ℕ → ℝ) : EReal :=
  ∑ k : Fin 32, (0 + ∑ p : Fin 256, (f (p.val * 32 + k.val) : EReal)) * (g k.val : EReal)

/-- For real entries and real weights the two arrangements are one extended real. -/
theorem laneForm_eq_refForm (f g : ℕ → ℝ) : laneForm f g = refForm f g := by
  have hC : ∀ off l : ℕ, chunkSum f off l = ((∑ s ∈ range 8, f (off + s * 128 + l) : ℝ) : EReal) := by
    intro off l
    unfold chunkSum
    rw [coe_sum, Finset.sum_range]
  have h8 : ∀ F : ℕ → EReal, 0 + F 0 + F 1 + F 2 + F 3 + F 4 + F 5 + F 6 + F 7 = ∑ c ∈ range 8, F c := by
    intro F; simp [Finset.sum_range_succ]
  have hL : laneForm f g
      = ((∑ l ∈ range 128, (∑ c ∈ range 8, ∑ s ∈ range 8, f (c * 1024 + s * 128 + l)) * g (l % 32) : ℝ) : EReal) := by
    rw [Finset.sum_range, coe_sum]
    unfold laneForm
    refine Finset.sum_congr rfl fun l _ => ?_
    rw [EReal.coe_mul, coe_sum]
    refine congrArg (fun z : EReal => z * ((g (l.val % 32) : ℝ) : EReal)) ?_
    refine (h8 (fun c => chunkSum f (c * 1024) l.val)).trans ?_
    refine Finset.sum_congr rfl fun c _ => ?_
    exact hC (c * 1024) l.val
  have hR : refForm f g = ((∑ k ∈ range 32, (∑ p ∈ range 256, f (p * 32 + k)) * g k : ℝ) : EReal) := by
    rw [Finset.sum_range, coe_sum]
    unfold refForm
    refine Finset.sum_congr rfl fun k _ => ?_
    rw [EReal.coe_mul, Finset.sum_range, coe_sum, zero_add]
  rw [hL, hR, regroup_real]

end PatchSum

end
-- ==== Proof.BodyAt.lean ====
/-
  The body's output block read at one entry, over the extended reals.
-/
import proofs.«121352_j23510650978886_2_alg».proof.Proof.BodyValue
import proofs.«121352_j23510650978886_2_alg».proof.Proof.PatchSum
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

/-- Entry `(r, q)` of the chunk that starts at column `off` is entry `(r, off + q)` of the block. -/
theorem chunk_apply (x0 : Vec Ideal S512x8192 .f32) (off : Nat)
    (h : ∀ a, (![0, off] : Fin 2 → Nat) a + S512x1024.size a ≤ S512x8192.size a)
    (r : Fin 512) (q : Fin 1024) (hq : off + q.val < 8192) :
    chunk x0 off h (ix2 r q) = x0 (ix2 r ⟨off + q.val, hq⟩) := by
  unfold chunk
  show x0 _ = x0 _
  refine congrArg x0 (funext fun a => Fin.ext ?_)
  match a with
  | ⟨0, _⟩ => show 0 + 1 * r.val = r.val; omega
  | ⟨1, _⟩ => show off + 1 * q.val = off + q.val; omega

/-- One chunk folded over its eight groups of 128 lanes, at row `r` and lane `l`: the eight entries of the row that the
    lane meets in the chunk, 128 columns apart. -/
theorem chunk_lane (x0 : Vec Ideal S512x8192 .f32) (off : Nat)
    (h : ∀ a, (![0, off] : Fin 2 → Nat) a + S512x1024.size a ≤ S512x8192.size a)
    (hc : S512x1024.ShapeCasts S512x8x128) (hr : S512x8x128.Reduces [1] S512x128) (hφ : FKind.Formats .f32)
    (hacc : (0x00000000#32 : BitVec 32) = 0x00000000#32) (r : Fin 512) (l : Fin 128) (f : ℕ → ℝ)
    (hx : ∀ (n : ℕ) (hn : n < 8192), x0 (ix2 r ⟨n, hn⟩) = (f n : EReal)) :
    multiReduction (F := Ideal) .add [1] S512x128 (shapeCast S512x8x128 (chunk x0 off h) hc) 0x00000000#32 hr hφ hacc (ix2 r l)
      = PatchSum.chunkSum f off l.val := by
  refine (Ideal.multiReduction_add_single (shapeCast S512x8x128 (chunk x0 off h) hc) 0x00000000#32 hr hφ hacc (ix2 r l)).trans ?_
  unfold PatchSum.chunkSum
  refine Finset.sum_congr rfl fun s _ => ?_
  have hs : s.val < 8 := s.isLt
  have hl : l.val < 128 := l.isLt
  have hoff : off + 1024 ≤ 8192 := h 1
  refine (shapeCast_apply (chunk x0 off h) hc (hr.lift (ix2 r l) s) (ix2 r ⟨s.val * 128 + l.val, by omega⟩) ?_).trans ?_
  · rw [Shape.rowMajor_val_two, Shape.rowMajor_val_three]
    show r.val * 1024 + (s.val * 128 + l.val) = (r.val * 8 + s.val) * 128 + l.val
    omega
  · rw [chunk_apply x0 off h r ⟨s.val * 128 + l.val, by omega⟩ (by show off + (s.val * 128 + l.val) < 8192; omega)]
    refine (hx _ _).trans ?_
    show ((f (off + (s.val * 128 + l.val)) : ℝ) : EReal) = _
    rw [Nat.add_assoc]

/-- The matrix product's operand indices at output entry `(r, o)` and contraction coordinate `l`: `(r, l)` on the
    left, `(l, o)` on the right. -/
theorem lhs_row (i : S512x8.Idx) (q : dot_S512x128_S128x8_S512x8_1_0_0_1_n_n.contr.Idx) : (dot_S512x128_S128x8_S512x8_1_0_0_1_n_n.lhsIdx i q 0).val = (i 0).val := by
  unfold DotDims.lhsIdx
  rw [dif_neg (show ¬(0 : Fin S512x128.rank) ∈ dot_S512x128_S128x8_S512x8_1_0_0_1_n_n.lhsBatch by decide),
    dif_pos (show (0 : Fin S512x128.rank) ∈ dot_S512x128_S128x8_S512x8_1_0_0_1_n_n.lhsNonContracting by decide)]
  rfl
theorem rhs_col (i : S512x8.Idx) (q : dot_S512x128_S128x8_S512x8_1_0_0_1_n_n.contr.Idx) : (dot_S512x128_S128x8_S512x8_1_0_0_1_n_n.rhsIdx i q 1).val = (i 1).val := by
  unfold DotDims.rhsIdx
  rw [dif_neg (show ¬(1 : Fin S128x8.rank) ∈ dot_S512x128_S128x8_S512x8_1_0_0_1_n_n.rhsBatch by decide),
    dif_pos (show (1 : Fin S128x8.rank) ∈ dot_S512x128_S128x8_S512x8_1_0_0_1_n_n.rhsNonContracting by decide)]
  rfl

theorem lhs_index (r : Fin 512) (o : Fin 8) (l : Fin 128) :
    dot_S512x128_S128x8_S512x8_1_0_0_1_n_n.lhsIdx (ix2 r o) ((contrEquiv1 dot_S512x128_S128x8_S512x8_1_0_0_1_n_n 128 rfl rfl).symm l) = ix2 r l := by
  have hk := contrEquiv1_symm_val dot_S512x128_S128x8_S512x8_1_0_0_1_n_n 128 rfl rfl l
  refine funext fun a => Fin.ext ?_
  match a with
  | ⟨0, _⟩ => exact lhs_row _ _
  | ⟨1, _⟩ => exact (dot_S512x128_S128x8_S512x8_1_0_0_1_n_n.lhsIdx_val_of_single rfl _ _).trans hk

theorem rhs_index (r : Fin 512) (o : Fin 8) (l : Fin 128) :
    dot_S512x128_S128x8_S512x8_1_0_0_1_n_n.rhsIdx (ix2 r o) ((contrEquiv1 dot_S512x128_S128x8_S512x8_1_0_0_1_n_n 128 rfl rfl).symm l) = ix2 l o := by
  have hk := contrEquiv1_symm_val dot_S512x128_S128x8_S512x8_1_0_0_1_n_n 128 rfl rfl l
  refine funext fun a => Fin.ext ?_
  match a with
  | ⟨0, _⟩ => exact (dot_S512x128_S128x8_S512x8_1_0_0_1_n_n.rhsIdx_val_of_single rfl _ _).trans hk
  | ⟨1, _⟩ => exact rhs_col _ _

/-- Entry `(r, o)` of the stored product, when row `r` of the `x` block holds the reals `f` and column `o` of the weight
    block holds at lane `l` the real `g (l % 32)`: the lane arrangement of the row's weighted patch sum. -/
theorem block_apply (x0 : Vec Ideal S512x8192 .f32) (x1 : Vec Ideal S128x8 .f32) (r : Fin 512) (o : Fin 8) (f g : ℕ → ℝ)
    (hx : ∀ (n : ℕ) (hn : n < 8192), x0 (ix2 r ⟨n, hn⟩) = (f n : EReal))
    (hw : ∀ l : Fin 128, x1 (ix2 l o) = (g (l.val % 32) : EReal)) :
    block x0 x1 (ix2 r o) = PatchSum.laneForm f g := by
  have h0 : (Scalar.ofBits (F := Ideal) .f32 0x00000000#32 : Ideal .f32) = (0 : EReal) := Ideal.ofBits_zero_f32
  unfold block k0_pay1
  simp only [matmul]
  refine (Ideal.matmul_constant_zero_apply _ _ _ _ _).trans ?_
  rw [← Equiv.sum_comp (contrEquiv1 dot_S512x128_S128x8_S512x8_1_0_0_1_n_n 128 rfl rfl).symm]
  unfold PatchSum.laneForm
  refine Finset.sum_congr rfl fun l _ => ?_
  rw [lhs_index, rhs_index, shapeCast_self, hw l]
  refine congrArg (fun z : EReal => z * ((g (l.val % 32) : ℝ) : EReal)) ?_
  unfold k0_pay2
  simp only [addf_apply, broadcast_apply, chunk_lane x0 _ _ _ _ _ _ r l f hx, h0]

end Cert.KernelIdeal.Body

end
-- ==== Proof.RefAt.lean ====
/-
  The reference's result read at one entry, over the extended reals.

  The reference cuts row `R` of `x` into 256 patches of 32 (entry `(R, p, k)` of the reshaped array is column `32 p + k`
  of the row), adds for each phase `k` the 256 patches' entries onto zero, and contracts the 32 phase sums with row `o` of
  the weights: the phase arrangement of the row's weighted patch sum.
-/
import proofs.«121352_j23510650978886_2_alg».proof.Proof.Gen.ReferenceIdeal.Read
import proofs.«121352_j23510650978886_2_alg».proof.Proof.PatchSum
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefAt

open Cert.ReferenceIdeal Cert.ReferenceIdeal.Gen Cert.ReferenceIdeal.Read

/-- Entry `(R, o)` of the reference's result, when row `R` of `x` holds the reals `f` and row `o` of the weights the reals
    `g`. -/
theorem result_apply (x : (⟨S16384x8192, .f32⟩ : BufTy).Contents (Elt Ideal))
    (w : (⟨S8x1x32, .f32⟩ : BufTy).Contents (Elt Ideal)) (R : Fin 16384) (o : Fin 8) (f g : ℕ → ℝ)
    (hx : ∀ (n : ℕ) (hn : n < 8192), x (ix2 R ⟨n, hn⟩) = (f n : EReal))
    (hw : ∀ k : Fin 32, w (ix3 o (0 : Fin 1) k) = (g k.val : EReal)) :
    val_main_v3 (F := Ideal) x w (ix2 R o) = PatchSum.refForm f g := by
  rw [val_main_v3_apply]
  unfold PatchSum.refForm
  refine Finset.sum_congr rfl fun k _ => ?_
  have hk : k.val < 32 := k.isLt
  have hR : R.val < 16384 := R.isLt
  have ho : o.val < 8 := o.isLt
  have e0 : (val_main_cst (F := Ideal)) (Shape.Idx.first h_S_) = (0 : EReal) := Ideal.ofBits_zero_f32
  have ex : ∀ p : Fin 256, val_main_v0 (F := Ideal) x (idx_main_v1 (lidx_main_v3 (ix2 R o) k) p)
      = (f (p.val * 32 + k.val) : EReal) := by
    intro p
    have hp : p.val < 256 := p.isLt
    rw [val_main_v0_apply]
    refine (congrArg x ?_).trans (hx (p.val * 32 + k.val) (by omega))
    funext a; apply Fin.ext
    match a with
    | ⟨0, _⟩ => show ((R.val * 256 + p.val) * 32 + k.val) / 8192 = R.val; omega
    | ⟨1, _⟩ => show ((R.val * 256 + p.val) * 32 + k.val) % 8192 = p.val * 32 + k.val; omega
  have ew : val_main_v2 (F := Ideal) w (ridx_main_v3 (ix2 R o) k) = (g k.val : EReal) := by
    rw [val_main_v2_apply]
    refine (congrArg w ?_).trans (hw k)
    funext a; apply Fin.ext
    match a with
    | ⟨0, _⟩ => show (o.val * 32 + k.val) / 32 = o.val; omega
    | ⟨1, _⟩ => rfl
    | ⟨2, _⟩ => show (o.val * 32 + k.val) % 32 = k.val; omega
  rw [val_main_v1_apply, e0, ew]
  simp only [ex]

end Cert.ReferenceIdeal.RefAt

end
-- ==== Proof.InputBlocks.lean ====
/-
  What the two input windows hold at a grid point, as entries of the argument arrays.

  Grid point `t` (of 32) sees rows `512 t … 512 t + 511` of `x`, all 8192 columns, and the whole 128 × 8 tiled weight
  array.  That array is made before the launch from the weights `W : [8, 1, 32]`: drop the unit axis, transpose to
  [32, 8], repeat four times along a new leading axis and merge it with the 32: its entry `(l, o)` is `W (o, 0, l % 32)`.
-/
import proofs.«121352_j23510650978886_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three windows' block indices at every grid point: the `x` window and the output window move down one block of
    rows per point, the weight window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the `x` window's block at point `t` is entry `(512 t + y₀, y₁)` of `x`. -/
theorem xblock_apply (c : Dev nD) (t : Fin cfg0.N) (y : S512x8192.Idx) (k : S16384x8192.Idx)
    (hk0 : (k 0).val = 512 * t.val + (y 0).val) (hk1 : (k 1).val = (y 1).val) :
    (iblk m c 0 t : Vec F S512x8192 .f32) y
      = (m ((c : Thread nD τ).loc main_arg0) : S16384x8192.Idx → Elt F .f32) k := by
  obtain ⟨e0, e1, -⟩ := index_facts t
  unfold iblk
  rw [View.read_apply]
  show V m c main_arg0 _ = m (c.tc.loc main_arg0) _
  rw [V_main_arg0]
  refine congrArg (m ((c : Thread nD τ).loc main_arg0) : S16384x8192.Idx → Elt F .f32) (funext fun a => Fin.ext ?_)
  match a with
  | ⟨0, _⟩ => show win0_0.index t 0 * 512 + 1 * (y 0).val = (k 0).val; rw [e0, hk0]; omega
  | ⟨1, _⟩ => show win0_0.index t 1 * 8192 + 1 * (y 1).val = (k 1).val; rw [e1, hk1]; omega

/-- The weight window's block at every point is the whole tiled weight array. -/
theorem wblock_apply (c : Dev nD) (t : Fin cfg0.N) (y : S128x8.Idx) :
    (iblk m c 1 t : Vec F S128x8 .f32) y = (V m c main_v4 : S128x8.Idx → Elt F .f32) y := by
  obtain ⟨-, -, e0, e1, -⟩ := index_facts t
  unfold iblk
  rw [View.read_apply]
  show V m c main_v4 _ = V m c main_v4 y
  refine congrArg (V m c main_v4 : S128x8.Idx → Elt F .f32) (funext fun a => Fin.ext ?_)
  match a with
  | ⟨0, _⟩ => show win0_1.index t 0 * 128 + 1 * (y 0).val = (y 0).val; rw [e0]; omega
  | ⟨1, _⟩ => show win0_1.index t 1 * 8 + 1 * (y 1).val = (y 1).val; rw [e1]; omega

/-- The tiled weight array as the launch finds it: the five layout operations applied to `W`. -/
theorem weights_term (c : Dev nD) : (V m c main_v4 : S128x8.Idx → Elt F .f32)
    = shapeCast S128x8 (broadcastInDim S4x32x1x8 ![0, 1, 2, 3] bcast_S1x32x1x8_S4x32x1x8_0_1_2_3
        (shapeCast S1x32x1x8 (transpose S32x8 [1, 0]
          (shapeCast S8x32 (m ((c : Thread nD τ).loc main_arg1)) shapeCasts_S8x1x32_S8x32)
          transposes_S8x32_S32x8_1_0) shapeCasts_S32x8_S1x32x1x8)) shapeCasts_S4x32x1x8_S128x8 := by
  dsimp only [Gen.V, Gen.hostOps0]; after_results; rfl

/-- Entry `(l, o)` of the tiled weight array is `W (o, 0, l % 32)`. -/
theorem weights_apply (c : Dev nD) (l : Fin 128) (o : Fin 8) :
    (V m c main_v4 : S128x8.Idx → Elt F .f32) (ix2 l o)
      = (m ((c : Thread nD τ).loc main_arg1) : S8x1x32.Idx → Elt F .f32)
          (ix3 o (0 : Fin 1) ⟨l.val % 32, Nat.mod_lt _ (by decide)⟩) := by
  have hl : l.val < 128 := l.isLt
  have ho : o.val < 8 := o.isLt
  rw [weights_term]
  refine (shapeCast_apply _ _ (ix2 l o)
    (ix4 (⟨l.val / 32, by omega⟩ : Fin 4) (⟨l.val % 32, by omega⟩ : Fin 32) (0 : Fin 1) o) ?_).trans ?_
  · rw [Shape.rowMajor_val_four, Shape.rowMajor_val_two]
    show ((l.val / 32 * 32 + l.val % 32) * 1 + 0) * 8 + o.val = l.val * 8 + o.val
    omega
  refine (broadcastInDim_apply _ _ _ _
    (ix4 (0 : Fin 1) (⟨l.val % 32, by omega⟩ : Fin 32) (0 : Fin 1) o) ?_).trans ?_
  · intro a
    match a with
    | ⟨0, _⟩ => rfl
    | ⟨1, _⟩ => rfl
    | ⟨2, _⟩ => rfl
    | ⟨3, _⟩ => rfl
  refine (shapeCast_apply _ _ _ (ix2 (⟨l.val % 32, by omega⟩ : Fin 32) o) ?_).trans ?_
  · rw [Shape.rowMajor_val_two, Shape.rowMajor_val_four]
    show l.val % 32 * 8 + o.val = ((0 * 32 + l.val % 32) * 1 + 0) * 8 + o.val
    omega
  refine (transpose_apply _ _ _ _ (ix2 o (⟨l.val % 32, by omega⟩ : Fin 32)) ?_).trans ?_
  · intro b
    match b with
    | ⟨0, _⟩ => rfl
    | ⟨1, _⟩ => rfl
  refine shapeCast_apply _ _ _ (ix3 o (0 : Fin 1) ⟨l.val % 32, Nat.mod_lt _ (by decide)⟩) ?_
  rw [Shape.rowMajor_val_three, Shape.rowMajor_val_two]
  show (o.val * 1 + 0) * 32 + l.val % 32 = o.val * 32 + l.val % 32
  omega

end Cert.KernelIdeal.Blocks

end
-- ==== Proof.KernelRun.lean ====
/-
  From the blocks to the array: what the kernel's result array holds after the run, for inputs whose entries are reals.

  Point `t` writes back rows `512 t … 512 t + 511` of the result, and the 32 points' blocks tile the 16384 × 8 array.
  Entry `(r, o)` of point `t`'s block is the lane arrangement of row `512 t + r`'s weighted patch sum, which for real
  entries is its phase arrangement, which is entry `(512 t + r, o)` of the reference's result: so the array ends holding
  the reference's function of the two arguments (`result`).
-/
import proofs.«121352_j23510650978886_2_alg».proof.Proof.Gen.KernelIdeal.Value
import proofs.«121352_j23510650978886_2_alg».proof.Proof.BodyAt
import proofs.«121352_j23510650978886_2_alg».proof.Proof.RefAt
import proofs.«121352_j23510650978886_2_alg».proof.Proof.InputBlocks

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen

variable (m : (ℓ : Loc nD τ sig) → Buf (Elt Ideal) ℓ) (ρ : Dev nD → PrngReg)

/-- The two argument arrays as functions into the extended reals. -/
abbrev xArr (c : Dev nD) : S16384x8192.Idx → EReal := m ((c : Thread nD τ).loc main_arg0)
abbrev wArr (c : Dev nD) : S8x1x32.Idx → EReal := m ((c : Thread nD τ).loc main_arg1)

/-- Every entry of both arguments is the image of a real. -/
def RealInputs (c : Dev nD) : Prop :=
  (∀ i, xArr m c i = (((xArr m c i).toReal : ℝ) : EReal)) ∧ (∀ i, wArr m c i = (((wArr m c i).toReal : ℝ) : EReal))

/-- Row `R` of `x` and row `o` of the weights as real sequences (zero past their ends). -/
def rowReal (x : S16384x8192.Idx → EReal) (R : Fin 16384) : ℕ → ℝ :=
  fun n => if h : n < 8192 then (x (ix2 R ⟨n, h⟩)).toReal else 0
def wgtReal (w : S8x1x32.Idx → EReal) (o : Fin 8) : ℕ → ℝ :=
  fun k => if h : k < 32 then (w (ix3 o (0 : Fin 1) ⟨k, h⟩)).toReal else 0

theorem row_entry (x : S16384x8192.Idx → EReal) (hx : ∀ i, x i = (((x i).toReal : ℝ) : EReal)) (R : Fin 16384)
    (n : ℕ) (hn : n < 8192) : x (ix2 R ⟨n, hn⟩) = ((rowReal x R n : ℝ) : EReal) := by
  unfold rowReal; rw [dif_pos hn]; exact hx _
theorem wgt_entry (w : S8x1x32.Idx → EReal) (hw : ∀ i, w i = (((w i).toReal : ℝ) : EReal)) (o : Fin 8)
    (k : ℕ) (hk : k < 32) : w (ix3 o (0 : Fin 1) ⟨k, hk⟩) = ((wgtReal w o k : ℝ) : EReal) := by
  unfold wgtReal; rw [dif_pos hk]; exact hw _

/-- What the result array ends holding: the reference's function of the two arguments. -/
abbrev result (c : Dev nD) : S16384x8.Idx → EReal :=
  Cert.ReferenceIdeal.Read.val_main_v3 (F := Ideal) (xArr m c) (wArr m c)

/-- Entry `(r, o)` of point `t`'s output block is entry `(512 t + r, o)` of `result`. -/
theorem entry (c : Dev nD) (h : RealInputs m c) (t : Fin cfg0.N) (r : Fin 512) (o : Fin 8) (R : Fin 16384)
    (hR : R.val = 512 * t.val + r.val) :
    Body.block (iblk m c 0 t : Vec Ideal S512x8192 .f32) (iblk m c 1 t : Vec Ideal S128x8 .f32) (ix2 r o)
      = result m c (ix2 R o) := by
  refine (Body.block_apply (iblk m c 0 t) (iblk m c 1 t) r o (rowReal (xArr m c) R) (wgtReal (wArr m c) o) ?_ ?_).trans ?_
  · intro n hn
    exact (Blocks.xblock_apply m c t (ix2 r ⟨n, hn⟩) (ix2 R ⟨n, hn⟩) hR rfl).trans (row_entry _ h.1 R n hn)
  · intro l
    refine (Blocks.wblock_apply m c t (ix2 l o)).trans ((Blocks.weights_apply m c l o).trans ?_)
    exact wgt_entry _ h.2 o (l.val % 32) _
  · rw [PatchSum.laneForm_eq_refForm]
    exact (Cert.ReferenceIdeal.RefAt.result_apply (xArr m c) (wArr m c) R o _ _
      (fun n hn => row_entry _ h.1 R n hn) (fun k => wgt_entry _ h.2 o k.val k.isLt)).symm

/-- What point `t` writes back is block `t` of `result`. -/
theorem flushed_eq (c : Dev nD) (h : RealInputs m c) (t : Fin cfg0.N) :
    (dats m 0 c).flushed 2 t = ((cfg0.win 2).blk t).view.read (Elt Ideal) (result m c) := by
  obtain ⟨-, -, -, -, e0, e1⟩ := Blocks.index_facts t
  have hN : cfg0.N = 32 := N_0
  have ht : t.val < 32 := by have := t.isLt; omega
  refine (Cert.KernelIdeal.Value.flushed2_A m c t).trans ?_
  rw [Body.block_eq c (grid0.coords t) (ms0_0 t) (hs0_0 t) (ms0_1 t) (hs0_1 t) (ms0_2 t) (hs0_2 t)
    (iblk m c 0 t) (iblk m c 1 t)]
  funext j
  show Body.block (iblk m c 0 t) (iblk m c 1 t) j = result m c (((cfg0.win 2).blk t).view.emb j)
  obtain ⟨r, o, rfl⟩ : ∃ (r : Fin 512) (o : Fin 8), j = ix2 r o := ⟨j 0, j 1, eq_ix2 j⟩
  have hr : r.val < 512 := r.isLt
  refine (entry m c h t r o ⟨512 * t.val + r.val, by omega⟩ rfl).trans ?_
  refine congrArg (result m c) (funext fun a => Fin.ext ?_)
  match a with
  | ⟨0, _⟩ => show 512 * t.val + r.val = win0_2.index t (0 : Fin 2) * 512 + 1 * r.val; rw [e0]; omega
  | ⟨1, _⟩ => show o.val = win0_2.index t (1 : Fin 2) * 8 + 1 * o.val; rw [e1]; omega

/-- An index of the array is in point `t`'s block iff each coordinate is in the block's range on its axis. -/
theorem mem_blk (t : Fin cfg0.N) (i : S16384x8.Idx) :
    i ∈ ((cfg0.win 2).blk t).view.set ↔ ∀ a : Fin 2, win0_2.index t a * S512x8.size a ≤ (i a).val
      ∧ (i a).val < win0_2.index t a * S512x8.size a + S512x8.size a := by
  show i ∈ ((View.whole main_v5).slice (win0_2.rect t)).set ↔ _
  rw [View.set_slice_whole, Rect.mem_set_unit]
  exact Iff.rfl

/-- Row `R` of the array is in the block of point `R / 512`. -/
theorem covered (i : S16384x8.Idx) :
    ∃ t : Fin cfg0.N, (cfg0.win 2).flush t = true ∧ i ∈ ((cfg0.win 2).blk t).view.set := by
  have hN : cfg0.N = 32 := N_0
  have h0 : (i 0).val < 16384 := (i 0).isLt
  have h1 : (i 1).val < 8 := (i 1).isLt
  obtain ⟨t, ht⟩ : ∃ t : Fin cfg0.N, t.val = (i 0).val / 512 := ⟨⟨(i 0).val / 512, by rw [hN]; omega⟩, rfl⟩
  obtain ⟨-, -, -, -, e0, e1⟩ := Blocks.index_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 8 ≤ (i 1).val ∧ (i 1).val < win0_2.index t (1 : Fin 2) * 8 + 8
    rw [e1]; omega

/-- So the result array ends holding `result`. -/
theorem final (c : Dev nD) (h : RealInputs m c) : (dats m 0 c).arrAt 2 cfg0.N = result m c :=
  (dats m 0 c).arrAt_eq_of_cover 2 (result m c) (fun t _ => flushed_eq m c h t) covered

/-- The kernel's run, read: the result array at `result`, the arguments unchanged. -/
theorem run (h : ∀ c, RealInputs m c) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans (final m c (h c)), (hr c).2⟩)
    (Cert.KernelIdeal.Value.run_blocks m ρ)

end Cert.KernelIdeal.Run

end
-- ==== Proof.lean ====
/-
  A strided one-dimensional convolution (kernel length = stride = 32, one input channel, eight output channels) summed
  over its 256 positions: `out (b, o) = ∑ₖ (∑ₚ x (b, 32 p + k)) · W (o, 0, k)`, for `x : [16384, 8192]`, `W : [8, 1, 32]`.

  The reference computes exactly that: the 256 patches of a row added phase by phase, then contracted with the weights.
  The kernel cuts the rows into 32 blocks of 512, and for each block adds the row's entries LANE by lane — lane
  `l < 128` meets the 64 columns congruent to `l` modulo 128 — and multiplies the 512 × 128 lane sums by the weights
  tiled four times, `W₁₂₈ (l, o) = W (o, 0, l % 32)`.  Since 32 divides 128, lane `l` only meets entries of phase `l % 32`,
  and the lanes `k, k + 32, k + 64, k + 96` split phase `k`'s 256 patches four ways; putting them back together under the
  common weight is distributivity, valid for real numbers (PatchSum).  It fails on the extended reals at infinities of
  opposite sign, so the claim rests on its precondition: every input entry is finite, hence the image of a real
  (FiniteEntries).

  The modules: PatchSum (the law, over ℝ and carried to the extended reals); BodyValue (a grid point's output block as a
  pure function of its two input blocks); BodyAt (that function at one entry: the lane arrangement); RefAt (the
  reference's result at one entry: the phase arrangement); InputBlocks (the input blocks as entries of the arguments,
  the tiled weights as entries of `W`); KernelRun (the 32 blocks tile the result array, which ends holding the
  reference's function of the arguments); here, the five claims.
-/
import proofs.«121352_j23510650978886_2_alg».proof.Defs
import proofs.«121352_j23510650978886_2_alg».proof.Proof.Gen.Kernel
import proofs.«121352_j23510650978886_2_alg».proof.Proof.Gen.Kernel.Skeleton
import proofs.«121352_j23510650978886_2_alg».proof.Proof.Gen.Kernel.Launch
import proofs.«121352_j23510650978886_2_alg».proof.Proof.Gen.Kernel.Points
import proofs.«121352_j23510650978886_2_alg».proof.Proof.Gen.Kernel.Frame
import proofs.«121352_j23510650978886_2_alg».proof.Proof.Gen.KernelIdeal
import proofs.«121352_j23510650978886_2_alg».proof.Proof.Gen.KernelIdeal.Skeleton
import proofs.«121352_j23510650978886_2_alg».proof.Proof.Gen.KernelIdeal.Launch
import proofs.«121352_j23510650978886_2_alg».proof.Proof.Gen.KernelIdeal.Points
import proofs.«121352_j23510650978886_2_alg».proof.Proof.Gen.KernelIdeal.Frame
import proofs.«121352_j23510650978886_2_alg».proof.Proof.Gen.ReferenceIdeal
import proofs.«121352_j23510650978886_2_alg».proof.Proof.Gen.Pre_finite_inputs
import proofs.«121352_j23510650978886_2_alg».proof.Proof.Gen.KernelIdeal.Value
import proofs.«121352_j23510650978886_2_alg».proof.Proof.Gen.ReferenceIdeal.Run
import proofs.«121352_j23510650978886_2_alg».proof.Proof.Gen.ReferenceIdeal.Read
import proofs.«121352_j23510650978886_2_alg».proof.Proof.FiniteEntries
import proofs.«121352_j23510650978886_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the reference's function of the (agreeing, finite) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c, Cert.KernelIdeal.Run.RealInputs m c :=
    fun c => Cert.Pre_finite_inputs.Finite.reals_of_pre _ _ (hpre c)
  refine ⟨fun c => Cert.KernelIdeal.Run.result m c, Cert.KernelIdeal.Run.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
